-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S10000x128 .f32) (main_arg1 : IVec S2x320000 32) (main_arg2 : FVec F S128x128 .f32) (main_arg3 : FVec F S128 .f32) (main_arg4 : FVec F S128x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S10000x1 : Shape := ⟨2, ![10000, 1]⟩
abbrev S10240x1 : Shape := ⟨2, ![10240, 1]⟩
abbrev S1x10240 : Shape := ⟨2, ![1, 10240]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S10000 : Shape := ⟨1, ![10000]⟩

abbrev nBuf : Space → Nat
  | .hbm => 38
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S_, .f32⟩
  | .hbm, ⟨19, _⟩ => ⟨S10000x128, .f32⟩
  | .hbm, ⟨20, _⟩ => ⟨S320000x1, .i32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x1, .f32⟩
  | .hbm, ⟨31, _⟩ => ⟨S_, .i32⟩
  | .hbm, ⟨32, _⟩ => ⟨S_, .f32⟩
  | .hbm, ⟨33, _⟩ => ⟨S10240x1, .f32⟩
  | .hbm, ⟨34, _⟩ => ⟨S1x10240, .f32⟩
  | .hbm, ⟨35, _⟩ => ⟨S10240x1, .f32⟩
  | .hbm, ⟨36, _⟩ => ⟨S10000x1, .f32⟩
  | .hbm, ⟨37, _⟩ => ⟨S10000, .f32⟩
  | .local _ .vmem, ⟨0, _⟩ => ⟨S512x1, .f32⟩
  | .local _ .vmem, ⟨1, _⟩ => ⟨S512x1, .f32⟩
  | .local _ .vmem, ⟨2, _⟩ => ⟨S1x10240, .f32⟩
  | .local _ .vmem, ⟨3, _⟩ => ⟨S512x1, .f32⟩
  | .local _ .vmem, ⟨4, _⟩ => ⟨S512x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def k0_mult1 : BitVec 32 :=
  let c0_i32 : BitVec 32 := 0#32
  let c1024_i32 : BitVec 32 := 1024#32
  let v7 : BitVec 32 := Scalar.muli c0_i32 c1024_i32
  v7
def k0_off1 (c0_i32 : BitVec 32) : Fin 2 → Nat :=
  let c0_3 : Index := 0#32
  let c1024_i32 : BitVec 32 := 1024#32
  let v7 : BitVec 32 := Scalar.muli c0_i32 c1024_i32
  let v8 : BitVec 32 := v7
  let v9 : Index := Scalar.indexCast v8
  ![0, v9.toNat]
def k0_mult2 : BitVec 32 :=
  let c1_i32 : BitVec 32 := 1#32
  let c1024_i32_6 : BitVec 32 := 1024#32
  let v21 : BitVec 32 := Scalar.muli c1_i32 c1024_i32_6
  v21
def k0_mult3 : BitVec 32 :=
  let c2_i32 : BitVec 32 := 2#32
  let c1024_i32_10 : BitVec 32 := 1024#32
  let v35 : BitVec 32 := Scalar.muli c2_i32 c1024_i32_10
  v35
def k0_mult4 : BitVec 32 :=
  let c3_i32 : BitVec 32 := 3#32
  let c1024_i32_14 : BitVec 32 := 1024#32
  let v49 : BitVec 32 := Scalar.muli c3_i32 c1024_i32_14
  v49
def k0_mult5 : BitVec 32 :=
  let c4_i32 : BitVec 32 := 4#32
  let c1024_i32_18 : BitVec 32 := 1024#32
  let v63 : BitVec 32 := Scalar.muli c4_i32 c1024_i32_18
  v63
def k0_mult6 : BitVec 32 :=
  let c5_i32 : BitVec 32 := 5#32
  let c1024_i32_22 : BitVec 32 := 1024#32
  let v77 : BitVec 32 := Scalar.muli c5_i32 c1024_i32_22
  v77
def k0_mult7 : BitVec 32 :=
  let c6_i32 : BitVec 32 := 6#32
  let c1024_i32_26 : BitVec 32 := 1024#32
  let v91 : BitVec 32 := Scalar.muli c6_i32 c1024_i32_26
  v91
def k0_mult8 : BitVec 32 :=
  let c7_i32 : BitVec 32 := 7#32
  let c1024_i32_30 : BitVec 32 := 1024#32
  let v105 : BitVec 32 := Scalar.muli c7_i32 c1024_i32_30
  v105
def k0_mult9 : BitVec 32 :=
  let c8_i32 : BitVec 32 := 8#32
  let c1024_i32_34 : BitVec 32 := 1024#32
  let v119 : BitVec 32 := Scalar.muli c8_i32 c1024_i32_34
  v119
def k0_mult10 : BitVec 32 :=
  let c9_i32 : BitVec 32 := 9#32
  let c1024_i32_38 : BitVec 32 := 1024#32
  let v133 : BitVec 32 := Scalar.muli c9_i32 c1024_i32_38
  v133
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  pads_S10000x1_S10240x1_02400_000 : S10000x1.Pads (![0, 0] : Fin 2 → Nat) ![240, 0] ![0, 0] S10240x1
  h_S_ : 0 < S_.numel
  shapeCasts_S10240x1_S1x10240 : S10240x1.ShapeCasts S1x10240
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  slices_S10240x1_S10000x1_0_0 : S10240x1.Slices ![0, 0] S10000x1
  shapeCasts_S10000x1_S10000 : S10000x1.ShapeCasts S10000
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  k0_mult1_dvd : 1024 ∣ k0_mult1.toNat
  k0_off1_inb : ∀ (r : Fin 10), ∀ a, (k0_off1 (BitVec.ofNat 32 r.val)) a + S1x1024.size a ≤ S1x10240.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S10240x1.size a
  hwx0_0 : ∀ i : grid0.Coords, EltTy.bits .f32 = 32 ∨ (Rect.block (s := S10240x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10240.size a ≤ S1x10240.size a
  hwx0_1 : ∀ i : grid0.Coords, EltTy.bits .f32 = 32 ∨ (Rect.block (s := S1x10240) S1x10240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S10240x1.size a
  hwx0_2 : ∀ i : grid0.Coords, EltTy.bits .f32 = 32 ∨ (Rect.block (s := S10240x1) S512x1.size (cc0_transform_2 i) (hinb0_2 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v21) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x10240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x1 : Shape := ⟨2, ![128, 1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S10000x1 : Shape := ⟨2, ![10000, 1]⟩
abbrev S1x10000 : Shape := ⟨2, ![1, 10000]⟩
abbrev S10000x10000 : Shape := ⟨2, ![10000, 10000]⟩
abbrev S10000 : Shape := ⟨1, ![10000]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x128, .f32⟩
  | .hbm, ⟨18, _⟩ => ⟨S_, .f32⟩
  | .hbm, ⟨19, _⟩ => ⟨S10000x128, .f32⟩
  | .hbm, ⟨20, _⟩ => ⟨S320000x1, .i32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x1, .f32⟩
  | .hbm, ⟨31, _⟩ => ⟨S1x10000, .f32⟩
  | .hbm, ⟨32, _⟩ => ⟨S10000x10000, .f32⟩
  | .hbm, ⟨33, _⟩ => ⟨S10000x10000, .f32⟩
  | .hbm, ⟨34, _⟩ => ⟨S10000x10000, .f32⟩
  | .hbm, ⟨35, _⟩ => ⟨S_, .f32⟩
  | .hbm, ⟨36, _⟩ => ⟨S10000x10000, .f32⟩
  | .hbm, ⟨37, _⟩ => ⟨S10000x10000, .f32⟩
  | .hbm, ⟨38, _⟩ => ⟨S_, .f32⟩
  | .hbm, ⟨39, _⟩ => ⟨S10000x10000, .f32⟩
  | .hbm, ⟨40, _⟩ => ⟨S10000x10000, .f32⟩
  | .hbm, ⟨41, _⟩ => ⟨S10000x10000, .f32⟩
  | .hbm, ⟨42, _⟩ => ⟨S_, .f32⟩
  | .hbm, ⟨43, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x1_S1x10000_1_0 : S10000x1.Transposes [1, 0] S1x10000
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  reducesTo_S10000x10000_S10000_d1 : S10000x10000.ReducesTo [1] S10000
  h_S_ : 0 < S_.numel
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.RowLaw.lean ====
/-
  The row law: one row of the pairwise soft-sign sum, computed two ways.

  For a score `a` and scores `X j` (`j < 10000`) the row value is `∑ j, tanh (K · (a − X j) − E)`.
  The tiled computation works on the vector padded with zeros to 10240 lanes, hoists the affine part
  (`u = K · a − E`, then `tanh (u − K · p j)`), sums the lanes ten chunks of 1024 at a time into a running total, and
  finally subtracts `240 · tanh u`: a zero lane contributes `tanh (u − K · 0) = tanh u`, and there are 240 of them.

  Everything holds on the extended reals without any finiteness assumption:
  • multiplication by a non-negative REAL distributes over a sum of extended reals, so
    `K · (a − b) − E = (K · a − E) − K · b` for all `a`, `b`, `E`;
  • `tanh` only takes real values (`±1` at the infinities), so adding 240 copies of `tanh u` and subtracting
    `240 · tanh u` cancels;
  • regrouping a finite sum is free in a commutative monoid.
-/
import Idealize.ShloMosaic.PureOps.Ideal
import Mathlib.Algebra.BigOperators.Fin
import Mathlib.Logic.Equiv.Fin.Basic
import Mathlib.Data.EReal.Operations

noncomputable section

namespace Cert.PairTanh

open Idealize.ShloMosaic
open scoped BigOperators

/-- Lane `l` of chunk `c` of a 10240-lane vector: position `1024 · c + l`. -/
def lane (p : Fin 10240 → EReal) (c : Fin 10) (l : Fin 1024) : EReal :=
  p ⟨l.val + 1024 * c.val, by have := c.isLt; have := l.isLt; omega⟩

/-- One chunk's contribution to a row: the sum over its 1024 lanes of `tanh (u − K · w l)`. -/
def chunk (K u : EReal) (w : Fin 1024 → EReal) : EReal := ∑ l : Fin 1024, Ideal.tanh (u - K * w l)

/-- The tiled row value: the running total over the ten chunks, started at `Z`, less `C · tanh u`. -/
def kernelRow (K E Z C a : EReal) (p : Fin 10240 → EReal) : EReal :=
  ((((((((((Z + chunk K (K * a - E) (lane p 0)) + chunk K (K * a - E) (lane p 1)) + chunk K (K * a - E) (lane p 2))
    + chunk K (K * a - E) (lane p 3)) + chunk K (K * a - E) (lane p 4)) + chunk K (K * a - E) (lane p 5))
    + chunk K (K * a - E) (lane p 6)) + chunk K (K * a - E) (lane p 7)) + chunk K (K * a - E) (lane p 8))
    + chunk K (K * a - E) (lane p 9)) - C * Ideal.tanh (K * a - E)

/-- The plain row value: `Z` plus the sum over all 10000 scores. -/
def refRow (K E Z a : EReal) (X : Fin 10000 → EReal) : EReal := Z + ∑ j : Fin 10000, Ideal.tanh (K * (a - X j) - E)

/-- `tanh` on the extended reals takes real values only. -/
theorem tanh_real (x : EReal) : ∃ r : ℝ, Ideal.tanh x = (r : EReal) := by
  induction x using EReal.rec with
  | bot => exact ⟨-1, by simp⟩
  | coe r => exact ⟨Real.tanh r, rfl⟩
  | top => exact ⟨1, by simp⟩

/-- The hoisted affine form: a non-negative real factor distributes over a difference of extended reals. -/
theorem affine (k : ℝ) (hk : 0 ≤ k) (E a b : EReal) :
    ((k : EReal) * a - E) - (k : EReal) * b = (k : EReal) * (a - b) - E := by
  have hd : (k : EReal) * (a - b) = (k : EReal) * a - (k : EReal) * b := by
    rw [sub_eq_add_neg, EReal.left_distrib_of_nonneg_of_ne_top (EReal.coe_nonneg.mpr hk) (EReal.coe_ne_top k), mul_neg,
      ← sub_eq_add_neg]
  rw [hd]
  simp only [sub_eq_add_neg]
  rw [add_right_comm]

/-- Ten chunks of 1024 lanes are the 10240 lanes. -/
theorem sum_chunks (g : EReal → EReal) (p : Fin 10240 → EReal) :
    ∑ c : Fin 10, ∑ l : Fin 1024, g (lane p c l) = ∑ j : Fin 10240, g (p j) := by
  refine (Fintype.sum_prod_type (fun x : Fin 10 × Fin 1024 => g (lane p x.1 x.2))).symm.trans ?_
  exact Equiv.sum_comp (finProdFinEquiv (m := 10) (n := 1024)) (fun j : Fin (10 * 1024) => g (p j))

/-- A running total over ten terms is the start plus their sum. -/
theorem chain_eq (Z : EReal) (S : Fin 10 → EReal) :
    ((((((((((Z + S 0) + S 1) + S 2) + S 3) + S 4) + S 5) + S 6) + S 7) + S 8) + S 9) = Z + ∑ c : Fin 10, S c := by
  simp only [Fin.sum_univ_castSucc, Fin.sum_univ_zero, zero_add, ← add_assoc]
  rfl

/-- The padded vector's sum: the 10000 scores' terms, and 240 copies of the term of a zero lane. -/
theorem sum_padded (g : EReal → EReal) (X : Fin 10000 → EReal) (p : Fin 10240 → EReal)
    (hin : ∀ (j : Fin 10240) (h : j.val < 10000), p j = X ⟨j.val, h⟩) (hout : ∀ j : Fin 10240, 10000 ≤ j.val → p j = 0) :
    ∑ j : Fin 10240, g (p j) = ∑ j : Fin 10000, g (X j) + 240 • g 0 := by
  refine (Fin.sum_univ_add (a := 10000) (b := 240) (fun j : Fin (10000 + 240) => g (p j))).trans ?_
  congr 1
  · refine Finset.sum_congr rfl fun j _ => ?_
    rw [hin (Fin.castAdd 240 j) j.isLt]
    rfl
  · rw [Finset.sum_congr rfl (fun j _ => by rw [hout (Fin.natAdd 10000 j) (Nat.le_add_right _ _)])]
    simp

/-- THE ROW LAW: for a non-negative real sharpness `k`, any shift `E`, any scores, and a vector `p` that is the scores
    followed by zeros, the tiled row value (start `0`, correction `240 · tanh u`) is the plain row value. -/
theorem kernelRow_eq_refRow (k : ℝ) (hk : 0 ≤ k) (E a : EReal) (X : Fin 10000 → EReal) (p : Fin 10240 → EReal)
    (hin : ∀ (j : Fin 10240) (h : j.val < 10000), p j = X ⟨j.val, h⟩) (hout : ∀ j : Fin 10240, 10000 ≤ j.val → p j = 0) :
    kernelRow (k : EReal) E 0 ((240 : ℝ) : EReal) a p = refRow (k : EReal) E 0 a X := by
  obtain ⟨r, hr⟩ := tanh_real ((k : EReal) * a - E)
  unfold kernelRow refRow
  rw [chain_eq 0 (fun c => chunk (k : EReal) ((k : EReal) * a - E) (lane p c))]
  unfold chunk
  rw [sum_chunks (fun b => Ideal.tanh (((k : EReal) * a - E) - (k : EReal) * b)) p,
    sum_padded (fun b => Ideal.tanh (((k : EReal) * a - E) - (k : EReal) * b)) X p hin hout]
  simp only [mul_zero, sub_zero, affine k hk, zero_add]
  rw [hr, ← EReal.coe_nsmul, ← EReal.coe_mul, nsmul_eq_mul]
  exact EReal.add_sub_cancel_right

end Cert.PairTanh

end
-- ==== Proof.Body.lean ====
/-
  What one grid point leaves in its output block, as a function of the two blocks it loads.

  The body reads its 512 rows' scores `x0` (a column) and the whole padded score vector `x1` (one row of 10240 lanes).
  It forms `u = K · x0 − E` once, and for each of the ten chunks of 1024 lanes adds to a running total — started at the
  zero column — the lane sums of `tanh (u − K · chunk)`, the column `u` broadcast along the lanes and the scaled chunk
  broadcast down the rows. At the end it subtracts `240 · tanh u`.

  `step` is one chunk's contribution; `blockFn` is the whole body over the loads; the body's one covering store leaves
  exactly `blockFn` of the blocks (`out_eq`, by unfolding the store's payload). Read at row `r` on the extended reals,
  `blockFn` is the row value `PairTanh.kernelRow` of the row's own score and the lanes (`blockFn_apply`).
-/
import proofs.«163968_j9586367004883_2_alg».proof.Proof.Gen.KernelIdeal.Frame
import proofs.«163968_j9586367004883_2_alg».proof.Proof.LibKeepdims
import proofs.«163968_j9586367004883_2_alg».proof.Proof.RowLaw
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The lanes `o … o + 1023` of the one-row vector, as the body loads them. -/
def lanes (x1 : Vec F S1x10240 .f32) (o : ℕ) (inb : ∀ a, (![0, o] : Fin 2 → ℕ) a + (![1, 1024] : Fin 2 → ℕ) a ≤ S1x10240.size a) :
    Vec F S1x1024 .f32 :=
  View.ld x1 (Rect.unit ![0, o] ![1, 1024] inb)

/-- One chunk's contribution: the lane sums, kept as a column, of `tanh (u − K · v)` with `u` broadcast along the lanes
    and the scaled chunk broadcast down the rows. -/
def step (u : FVec F S512x1 .f32) (v : Vec F S1x1024 .f32) : FVec F S512x1 .f32 :=
  shapeCast S512x1
    (multiReduction .add [1] S512
      (tanh (subf (broadcastTo S512x1024 u broadcasts_S512x1_S512x1024)
        (broadcastTo S512x1024
          (mulf (broadcast S1x1024 (Scalar.ofBits .f32 0x447A0000#32)) (shapeCast S1x1024 v shapeCasts_S1x1024_S1x1024))
          broadcasts_S1x1024_S512x1024)))
      0x00000000#32 reduces_S512x1024_S512 (.inl rfl) rfl)
    shapeCasts_S512_S512x1

/-- The hoisted affine column `u = K · x0 − E`. -/
def affineCol (x0 : Vec F S512x1 .f32) : FVec F S512x1 .f32 :=
  subf (mulf (broadcast S512x1 (Scalar.ofBits .f32 0x447A0000#32)) (shapeCast S512x1 x0 shapeCasts_S512x1_S512x1))
    (broadcast S512x1 (Scalar.ofBits .f32 0x40A00000#32))

/-- The whole body over its loads: the running total of the ten chunks' steps from the zero column, less `240 · tanh u`. -/
def blockFn (x0 : Vec F S512x1 .f32) (x1 : Vec F S1x10240 .f32) : FVec F S512x1 .f32 :=
  subf
    (addf (addf (addf (addf (addf (addf (addf (addf (addf (addf (broadcast S512x1 (Scalar.ofBits .f32 0x00000000#32))
      (step (affineCol x0) (lanes x1 0 (by decide))))
      (step (affineCol x0) (lanes x1 1024 (by decide))))
      (step (affineCol x0) (lanes x1 2048 (by decide))))
      (step (affineCol x0) (lanes x1 3072 (by decide))))
      (step (affineCol x0) (lanes x1 4096 (by decide))))
      (step (affineCol x0) (lanes x1 5120 (by decide))))
      (step (affineCol x0) (lanes x1 6144 (by decide))))
      (step (affineCol x0) (lanes x1 7168 (by decide))))
      (step (affineCol x0) (lanes x1 8192 (by decide))))
      (step (affineCol x0) (lanes x1 9216 (by decide))))
    (mulf (broadcast S512x1 (Scalar.ofBits .f32 0x43700000#32)) (tanh (affineCol x0)))

/-- What the body's one covering store leaves in the output block is `blockFn` of the two loaded blocks: the store's
    payload, with the intermediate values the body carries from one part to the next substituted, is that term. -/
theorem out_eq (c : Dev nD) (i : grid0.Coords) (a1 : Memref sig .tc .vmem S512x1 .f32) (h1 : a1.IsWhole)
    (a2 : Memref sig .tc .vmem S1x10240 .f32) (h2 : a2.IsWhole) (a3 : Memref sig .tc .vmem S512x1 .f32) (h3 : a3.IsWhole)
    (x0 : Vec F S512x1 .f32) (x1 : Vec F S1x10240 .f32) :
    out0_A_2 c i a1 h1 a2 h2 a3 h3 x0 x1 = blockFn x0 x1 := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread, View.ld_unit_zero (S := S512x1) hz]
  rfl

/-! ## On the extended reals, read at a row -/

/-- The affine column at row `r` is `K · x0 r − E`. -/
theorem affineCol_apply (x0 : Vec Ideal S512x1 .f32) (r : Fin 512) :
    affineCol x0 (ix2 r (0 : Fin 1))
      = Ideal.ofBits .f32 0x447A0000#32 * x0 (ix2 r (0 : Fin 1)) - Ideal.ofBits .f32 0x40A00000#32 := by
  unfold affineCol
  rw [shapeCast_self]
  rfl

/-- One chunk's step at row `r`: the sum over the chunk's lanes of `tanh (u r − K · v l)`. -/
theorem step_apply (u : FVec Ideal S512x1 .f32) (v : Vec Ideal S1x1024 .f32) (r : Fin 512) :
    step u v (ix2 r (0 : Fin 1))
      = ∑ l : Fin 1024, Ideal.tanh (u (ix2 r (0 : Fin 1)) - Ideal.ofBits .f32 0x447A0000#32 * v (ix2 (0 : Fin 1) l)) := by
  unfold step
  refine (Cert.Keepdims.shapeCast_a_a1_apply _ _ r 0).trans ?_
  refine (Cert.Keepdims.multiReduction_add_rows _ _ _ _ _ r).trans ?_
  refine Finset.sum_congr rfl fun l _ => ?_
  show Ideal.tanh (broadcastTo S512x1024 u broadcasts_S512x1_S512x1024 (ix2 r l)
      - broadcastTo S512x1024
          (mulf (broadcast S1x1024 (Scalar.ofBits (F := Ideal) .f32 0x447A0000#32)) (shapeCast S1x1024 v shapeCasts_S1x1024_S1x1024))
          broadcasts_S1x1024_S512x1024 (ix2 r l)) = _
  rw [Cert.Keepdims.broadcastTo_a1_ab_apply, broadcastTo_1b_ab_apply, shapeCast_self]
  rfl

/-- `tanh` of a vector, read at an index. -/
theorem tanh_at {s : Shape} (v : FVec Ideal s .f32) (i : s.Idx) : tanh v i = Ideal.tanh (v i) := rfl

/-- A chunk load at lane `l` is the one-row vector at lane `l + o`. -/
theorem lanes_apply (x1 : Vec Ideal S1x10240 .f32) (o : ℕ)
    (inb : ∀ a, (![0, o] : Fin 2 → ℕ) a + (![1, 1024] : Fin 2 → ℕ) a ≤ S1x10240.size a) (l : Fin 1024) :
    lanes x1 o inb (ix2 (0 : Fin 1) l)
      = x1 (ix2 (0 : Fin 1) (⟨l.val + o, by have h : o + 1024 ≤ 10240 := inb 1; have := l.isLt; omega⟩ : Fin 10240)) := by
  unfold lanes
  refine congrArg x1 (funext fun a => Fin.ext ?_)
  match a with
  | ⟨0, _⟩ => rfl
  | ⟨1, _⟩ => show o + 1 * l.val = l.val + o; omega

/-- THE BLOCK AT A ROW: row `r` of what a point leaves is the tiled row value of the row's own score and the 10240 lanes. -/
theorem blockFn_apply (x0 : Vec Ideal S512x1 .f32) (x1 : Vec Ideal S1x10240 .f32) (r : Fin 512) :
    blockFn x0 x1 (ix2 r (0 : Fin 1))
      = Cert.PairTanh.kernelRow (Ideal.ofBits .f32 0x447A0000#32) (Ideal.ofBits .f32 0x40A00000#32)
          (Ideal.ofBits .f32 0x00000000#32) (Ideal.ofBits .f32 0x43700000#32) (x0 (ix2 r (0 : Fin 1)))
          (fun j => x1 (ix2 (0 : Fin 1) j)) := by
  unfold blockFn Cert.PairTanh.kernelRow Cert.PairTanh.chunk Cert.PairTanh.lane
  simp only [subf_apply, addf_apply, mulf_apply, broadcast_apply, step_apply, tanh_at, affineCol_apply, lanes_apply]
  rfl

end Cert.KernelIdeal.Body

end
-- ==== Proof.HostSide.lean ====
/-
  The two arrays the region reads, as the host operations before it leave them.

  The program computes the per-node score column `X` (10000 rows: neighbour sums, two small matrix products and a
  `relu`; the very operations the reference starts with), pads it with 240 zero rows (the padding value is the integer
  `0` converted to a float), and reshapes the padded column into one row of 10240 lanes. `scores` is `X`, spelt with the
  reference's own stage for it so that both sides speak of one term; `padded` the padded column. Read at an index:
  rows below 10000 of `padded` are `X`'s, the rest are `0`, and lane `j` of the row is row `j` of the column.
-/
import proofs.«163968_j9586367004883_2_alg».proof.Proof.Gen.KernelIdeal.Frame
import proofs.«163968_j9586367004883_2_alg».proof.Proof.Gen.ReferenceIdeal.Read
import Idealize.ShloMosaic.Lib.Pipeline.Value
import Idealize.ShloMosaic.Lib.StableHlo.Run
import Idealize.ShloMosaic.Lib.KernelVsHost
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostSide

open Cert.KernelIdeal Cert.KernelIdeal.Gen

variable (m : (ℓ : Loc nD τ sig) → Buf (Elt Ideal) ℓ)

/-- The score column: the reference's stage for it, at this program's argument arrays. -/
def scores (c : Dev nD) : S10000x1.Idx → EReal :=
  Cert.ReferenceIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The score column padded with 240 rows of the converted integer zero. -/
def padded (c : Dev nD) : S10240x1.Idx → EReal :=
  pad S10240x1 ![0, 0] ![240, 0] ![0, 0] (scores m c) (sitofp (F := Ideal) .f32 (constantI S_ 32 0#32))
    pads_S10000x1_S10240x1_02400_000 h_S_

set_option maxHeartbeats 2000000 in
/-- The region's first array is the padded score column. -/
theorem V21_eq (c : Dev nD) : (V m c main_v21 : S10240x1.Idx → EReal) = padded m c := by
  dsimp only [V, V0]
  simp only [hostOps0, hostOps0_1, hostOps0_2, hostOps0_3, hostOps0_4, List.flatten_cons, List.flatten_nil, List.append_nil,
    List.cons_append, List.nil_append]
  after_results_simp <;> rfl

set_option maxHeartbeats 2000000 in
/-- The region's second array is that column reshaped into one row. -/
theorem V22_eq (c : Dev nD) :
    (V m c main_v22 : S1x10240.Idx → EReal) = shapeCast S1x10240 (padded m c) shapeCasts_S10240x1_S1x10240 := by
  dsimp only [V, V0]
  simp only [hostOps0, hostOps0_1, hostOps0_2, hostOps0_3, hostOps0_4, List.flatten_cons, List.flatten_nil, List.append_nil,
    List.cons_append, List.nil_append]
  after_results_simp <;> rfl

/-- A row of the padded column below 10000 is the score of that row. -/
theorem padded_in (c : Dev nD) (j : Fin 10240) (h : j.val < 10000) :
    padded m c (ix2 j (0 : Fin 1)) = scores m c (ix2 (⟨j.val, h⟩ : Fin 10000) (0 : Fin 1)) := by
  unfold padded
  refine pad_apply_of_inside _ _ _ _ _ _ _ _ _ fun a => ?_
  match a with
  | ⟨0, _⟩ => show j.val = 0 + j.val * (0 + 1); omega
  | ⟨1, _⟩ => show 0 = 0 + 0 * (0 + 1); rfl

/-- A row of the padded column from 10000 on is zero. -/
theorem padded_out (c : Dev nD) (j : Fin 10240) (h : 10000 ≤ j.val) : padded m c (ix2 j (0 : Fin 1)) = 0 := by
  unfold padded
  refine (pad_apply_of_not_inside _ _ _ _ _ _ _ _ (⟨0, by decide⟩ : Fin 2) ?_).trans ?_
  · show ¬(0 ≤ j.val ∧ (j.val - 0) % (0 + 1) = 0 ∧ (j.val - 0) / (0 + 1) < 10000)
    omega
  · show ((((0#32 : BitVec 32).toInt : ℝ)) : EReal) = 0
    simp

/-- Lane `j` of the one-row reshape is row `j` of the column. -/
theorem row_eq (c : Dev nD) (j : Fin 10240) :
    shapeCast S1x10240 (padded m c) shapeCasts_S10240x1_S1x10240 (ix2 (0 : Fin 1) j) = padded m c (ix2 j (0 : Fin 1)) := by
  refine shapeCast_apply _ _ _ _ ?_
  rw [Shape.rowMajor_val_two, Shape.rowMajor_val_two]
  show j.val * 1 + 0 = 0 * 10240 + j.val
  omega

end Cert.KernelIdeal.HostSide

end
-- ==== Proof.Spec.lean ====
/-
  The specification both programs meet: from the column of per-node scores `X` (10000 rows), entry `i` of the result is

      0 + ∑ j, tanh (K · (X i − X j) − E)

  — the row sums of the pairwise soft-sign matrix — with the sharpness `K`, the shift `E` and the start `0` kept as the
  words the programs spell (`PairTanh.refRow` over those words).
-/
import proofs.«163968_j9586367004883_2_alg».proof.Proof.RowLaw
import Idealize.ShloMosaic.Lib.ValueIdx

noncomputable section

namespace Cert.PairTanh

open Idealize.ShloMosaic Idealize.ShloMosaic.ValueIdx

/-- The row sums of the pairwise soft-sign matrix of a score column. -/
def rowSums (X : (⟨2, ![10000, 1]⟩ : Shape).Idx → EReal) : (⟨1, ![10000]⟩ : Shape).Idx → EReal := fun i =>
  refRow (Ideal.ofBits .f32 0x447A0000#32) (Ideal.ofBits .f32 0x40A00000#32) (Ideal.ofBits .f32 0x00000000#32)
    (X (ix2 (i 0 : Fin 10000) (0 : Fin 1))) (fun j => X (ix2 j (0 : Fin 1)))

end Cert.PairTanh

end
-- ==== Proof.Words.lean ====
/-
  The float words the two programs spell, as the extended reals they denote.

  Three of them enter the algebra with their exact values: the zero word (the accumulators' start, the padding value),
  the sharpness 1000 (it must distribute over a difference, so it has to be known as a non-negative real), and the
  number 240 of padded lanes (the correction term subtracts exactly as many copies of one summand as the padding added).
  The shift 5 is the same word on both sides and is never evaluated.
-/
import Idealize.ShloMosaic.PureOps.Ideal

noncomputable section

namespace Cert.Words

open Idealize.ShloMosaic

/-- The word of `+0.0` denotes `0`. -/
theorem ofBits_zero : Ideal.ofBits .f32 0x00000000#32 = 0 := by
  simp [Ideal.ofBits, Ideal.ieee]

/-- The word of `1000.0` denotes the real `1000`. -/
theorem ofBits_1000 : Ideal.ofBits .f32 0x447A0000#32 = ((1000 : ℝ) : EReal) := by
  simp [Ideal.ofBits, Ideal.ieee, -EReal.coe_mul]; norm_num

/-- The word of `240.0` denotes the real `240`. -/
theorem ofBits_240 : Ideal.ofBits .f32 0x43700000#32 = ((240 : ℝ) : EReal) := by
  simp [Ideal.ofBits, Ideal.ieee, -EReal.coe_mul]; norm_num

end Cert.Words

end
-- ==== Proof.KernelValue.lean ====
/-
  The kernel's result, read off its frame run.

  The region's output array has one block of 512 rows per grid point, and point `t` writes block `t`: the 20 blocks
  tile the 10240 rows. Row `r` of what point `t` leaves is the tiled row value of row `512 · t + r` of the padded score
  column (its own block of the first array) and of all 10240 lanes (the second array, the same column as a row). So the
  array ends as `regionOut`: at every row, the tiled row value of that row's padded score and the padded lanes.

  The two host operations after the region keep the first 10000 rows and drop the unit axis. On those rows the padded
  column is the score column, and beyond them it is zero — the hypotheses of the row law — so the program's result is
  the row sums of the pairwise soft-sign matrix of the scores (`PairTanh.rowSums`).
-/
import proofs.«163968_j9586367004883_2_alg».proof.Proof.Body
import proofs.«163968_j9586367004883_2_alg».proof.Proof.HostSide
import proofs.«163968_j9586367004883_2_alg».proof.Proof.Spec
import proofs.«163968_j9586367004883_2_alg».proof.Proof.Words
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.HostSide

variable (m : (ℓ : Loc nD τ sig) → Buf (Elt Ideal) ℓ) (ρ : Dev nD → PrngReg)

/-- The padded score column as a plain vector of 10240 entries. -/
def lanesOf (c : Dev nD) : Fin 10240 → EReal := fun j => padded m c (ix2 j (0 : Fin 1))

/-- What the region's output array ends holding: at each row the tiled row value of that row's padded score. -/
def regionOut (c : Dev nD) : S10240x1.Idx → EReal := fun i =>
  Cert.PairTanh.kernelRow (Ideal.ofBits .f32 0x447A0000#32) (Ideal.ofBits .f32 0x40A00000#32) (Ideal.ofBits .f32 0x00000000#32)
    (Ideal.ofBits .f32 0x43700000#32) (lanesOf m c (⟨(i 0).val, idx2_lt0 i⟩ : Fin 10240)) (lanesOf m c)

/-- A row of the body's block from what the two loaded blocks hold at that row and at the lanes. -/
theorem block_row (x0 : Vec Ideal S512x1 .f32) (x1 : Vec Ideal S1x10240 .f32) (y : S512x1.Idx) (a : EReal) (p : Fin 10240 → EReal)
    (h0 : x0 y = a) (h1 : ∀ j : Fin 10240, x1 (ix2 (0 : Fin 1) j) = p j) :
    Body.blockFn x0 x1 y
      = Cert.PairTanh.kernelRow (Ideal.ofBits .f32 0x447A0000#32) (Ideal.ofBits .f32 0x40A00000#32)
          (Ideal.ofBits .f32 0x00000000#32) (Ideal.ofBits .f32 0x43700000#32) a p := by
  obtain ⟨r, q, rfl⟩ : ∃ (r : Fin 512) (q : Fin 1), y = ix2 r q := ⟨y 0, y 1, eq_ix2 y⟩
  obtain rfl : q = 0 := Subsingleton.elim _ _
  rw [Body.blockFn_apply, h0, funext h1]

/-- The printed index maps over the grid: the first input's block moves with the output's, the second input is one
    block, and the output's block index on the row axis stays below 20. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block of rows is some point's. -/
theorem idx_onto : ∀ q : Fin 20, ∃ t : Fin cfg0.N, win0_2.index t = ![q.val, 0] :=
  (by decide +kernel : ∀ q : Fin 20, ∃ t : Fin grid0.N, win0_2.index t = ![q.val, 0])

/-- WHAT POINT `t` WRITES BACK is block `t` of `regionOut`. -/
theorem flushed_eq (c : Dev nD) (t : Fin cfg0.N) :
    (dats m 0 c).flushed 2 t = ((cfg0.win 2).blk t).view.read (Elt Ideal) (regionOut m c) := by
  show (cfg0.win 2).cut (grid0.coords t) ((dats m 0 c).after 2 t) = _
  rw [after0_2]
  unfold outsAt0
  rw [Body.out_eq]
  obtain ⟨e0, e1, e2, e3, e4, e5⟩ := idx_facts t
  funext j
  show Body.blockFn (iblk m c 0 t) (iblk m c 1 t) j = regionOut m c (((cfg0.win 2).blk t).view.emb j)
  refine block_row _ _ j _ _ ?_ ?_
  · show V m c main_v21 (((cfg0.win 0).blk t).view.emb j) = padded m c _
    rw [V21_eq]
    refine congrArg (padded m c) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1 + 1 * (j 1).val = 0; have hj : (j 1).val < 1 := (j 1).isLt; omega
  · intro j'
    show V m c main_v22 (((cfg0.win 1).blk t).view.emb (ix2 (0 : Fin 1) j')) = padded m c (ix2 j' (0 : Fin 1))
    rw [V22_eq, ← row_eq]
    refine congrArg _ (funext fun a => Fin.ext ?_)
    match a with
    | ⟨0, _⟩ => show win0_1.index t (0 : Fin 2) * 1 + 1 * 0 = 0; omega
    | ⟨1, _⟩ => show win0_1.index t (1 : Fin 2) * 10240 + 1 * j'.val = j'.val; omega

/-- An index of the array is in point `t`'s block iff each coordinate is in the block's range on its axis. -/
theorem mem_blk (t : Fin cfg0.N) (i : S10240x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v23).slice (win0_2.rect t)).set ↔ _
  rw [View.set_slice_whole, Rect.mem_set_unit]
  exact Iff.rfl

/-- The 20 blocks of 512 rows cover the array: row `i` is in the block of point `i / 512`. -/
theorem cover (i : S10240x1.Idx) : ∃ t : Fin cfg0.N, (cfg0.win 2).flush t = true ∧ i ∈ ((cfg0.win 2).blk t).view.set := by
  have hi0 : (i 0).val < 10240 := idx2_lt0 i
  have hi1 : (i 1).val < 1 := idx2_lt1 i
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- THE ARRAY AFTER THE RUN is `regionOut`. -/
theorem final (c : Dev nD) : (dats m 0 c).arrAt 2 cfg0.N = regionOut m c :=
  (dats m 0 c).arrAt_eq_of_cover 2 (regionOut m c) (fun t _ => flushed_eq m c t) cover

/-- The first 10000 rows of `regionOut`, the unit axis dropped, are the row sums of the score column: on those rows the
    padded column is the scores, beyond them zero, and the sharpness, the correction count and the start are the reals
    `1000`, `240` and `0` — the row law's hypotheses. -/
theorem rows_eq (c : Dev nD) :
    shapeCast S10000 (extractStridedSlice S10000x1 ![0, 0] (regionOut m c) slices_S10240x1_S10000x1_0_0) shapeCasts_S10000x1_S10000
      = Cert.PairTanh.rowSums (scores m c) := by
  funext i
  obtain ⟨r, rfl⟩ : ∃ r : Fin 10000, i = ix1 r := ⟨i 0, eq_ix1 i⟩
  have hr : r.val < 10240 := by have := r.isLt; omega
  refine (shapeCast_apply _ _ (ix1 r) (ix2 r (0 : Fin 1)) (by
    rw [Shape.rowMajor_val_two, Shape.rowMajor_val_one]; show r.val * 1 + 0 = r.val; omega)).trans ?_
  refine (slice2_axis0_apply 0 _ _ r (0 : Fin 1) (⟨r.val, hr⟩ : Fin 10240) (by simp)).trans ?_
  unfold regionOut Cert.PairTanh.rowSums
  rw [Cert.Words.ofBits_1000, Cert.Words.ofBits_240, Cert.Words.ofBits_zero]
  refine (Cert.PairTanh.kernelRow_eq_refRow 1000 (by norm_num) _ _ (fun j => scores m c (ix2 j (0 : Fin 1))) (lanesOf m c)
    (fun j h => padded_in m c j h) (fun j h => padded_out m c j h)).trans ?_
  exact congrArg (fun a => Cert.PairTanh.refRow _ _ _ a _) (padded_in m c ⟨r.val, hr⟩ r.isLt)

/-- The program's result buffer, as the lines after the region leave it: the first 10000 rows of the region's array,
    the unit axis dropped. -/
theorem tail_eq (c : Dev nD) :
    (Pipeline.afterTail₀ cfgs (dats m) 0 (V0 m) [hostOps1] c main_v25 : S10000.Idx → EReal)
      = shapeCast S10000 (extractStridedSlice S10000x1 ![0, 0] (regionOut m c) slices_S10240x1_S10000x1_0_0)
          shapeCasts_S10000x1_S10000 := by
  unfold Pipeline.afterTail₀
  show StableHlo.after hostOps1 _ (Proc.devRef .tc main_v25) = _
  after_results
  have e : Pipeline.withArrays (cfgs 0).spec c (V0 m c) (fun w => (dats m 0 c).arrAt w (cfgs 0).N) (Proc.devRef .tc main_v23)
      = regionOut m c := (Pipeline.withArrays_arr spec0 launch0.win.arr_inj c _ _ 2).trans (final m c)
  rw [e]
  rfl

/-- THE RUN, READ: every weakly fair execution terminates with the result buffer at the row sums of the score column and
    the argument arrays unchanged. -/
theorem run : θ_run defs (onTc (τ := τ) (main (F := Ideal))) ⟨m, fun _ => 0, ρ⟩ fun r => ∀ c : Dev nD,
      r.2.mem ((c.tc : Thread nD τ).loc main_v25) = Cert.PairTanh.rowSums (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v25 (Pipeline.mem_restRefs_of main_v25 (by decide) (by decide))).trans ((tail_eq m c).trans (rows_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefValue.lean ====
/-
  The reference computes the specification.

  After the shared prefix has produced the score column `X` (the generated stage `val_main_v20`), the reference
  transposes it, broadcasts the column along the rows and the row down the columns, subtracts, scales by `K`, shifts by
  `E`, applies `tanh` and sums each row from `0`. Read at entry `(i, k)` the broadcasts pick `X i` and `X k`, so row `i`
  sums `tanh (K · (X i − X k) − E)` over `k`: `PairTanh.rowSums X`.
-/
import proofs.«163968_j9586367004883_2_alg».proof.Defs
import proofs.«163968_j9586367004883_2_alg».proof.Proof.Gen.ReferenceIdeal.Run
import proofs.«163968_j9586367004883_2_alg».proof.Proof.Gen.ReferenceIdeal.Read
import proofs.«163968_j9586367004883_2_alg».proof.Proof.Spec

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read

/-- The reference's result is the row sums of the score column its prefix computes. -/
theorem result_eq (x0 : (⟨S10000x128, .f32⟩ : BufTy).Contents (Elt Ideal)) (x1 : (⟨S2x320000, .i32⟩ : BufTy).Contents (Elt Ideal))
    (x2 : (⟨S128x128, .f32⟩ : BufTy).Contents (Elt Ideal)) (x3 : (⟨S128, .f32⟩ : BufTy).Contents (Elt Ideal))
    (x4 : (⟨S128x1, .f32⟩ : BufTy).Contents (Elt Ideal)) :
    val_main_v30 (F := Ideal) x0 x1 x2 x3 x4 = Cert.PairTanh.rowSums (val_main_v20 (F := Ideal) x0 x1 x2 x3 x4) := by
  funext i
  unfold Cert.PairTanh.rowSums Cert.PairTanh.refRow
  rw [val_main_v30_apply]
  refine congrArg₂ (· + ·) rfl (Finset.sum_congr rfl fun k _ => ?_)
  rw [val_main_v29_apply, val_main_v28_apply, val_main_v26_apply, val_main_v25_apply, val_main_v27_apply, val_main_v24_apply,
    val_main_v22_apply, val_main_v23_apply, val_main_v21_apply]
  have e1 : idx_main_v22 (idx_main_v30 i k) = ix2 (i 0 : Fin 10000) (0 : Fin 1) :=
    funext fun a => Fin.ext (by match a with | ⟨0, _⟩ => rfl | ⟨1, _⟩ => rfl)
  have e2 : idx_main_v21 (idx_main_v23 (idx_main_v30 i k)) = ix2 k (0 : Fin 1) :=
    funext fun a => Fin.ext (by match a with | ⟨0, _⟩ => rfl | ⟨1, _⟩ => rfl)
  rw [e1, e2]
  rfl

end Cert.ReferenceIdeal.RefValue

end
-- ==== Proof.lean ====
/-
  The certificate's claims.

  Both programs first compute the per-node score column `X` with the same operations, and both end at the row sums of
  the pairwise soft-sign matrix, entry `i` being `∑ j, tanh (K · (X i − X j) − E)`. The reference forms the
  10000 × 10000 matrix and sums its rows. The kernel never forms it: it pads `X` with zeros to 10240 entries, gives each
  grid point 512 rows and the whole padded vector, hoists the affine part, sums the lanes ten chunks at a time, and removes
  the 240 zero lanes' contribution `240 · tanh (K · X i − E)` at the end. On the extended reals the two are equal for
  every input (Proof/RowLaw.lean), so the precondition is not used.

  The frames of the two kernel programs are the generated frame certificates; the reference's frame is its generated run
  with the result forgotten; the ideal pass rewrote nothing, so `preserves` is `True`.
-/
import proofs.«163968_j9586367004883_2_alg».proof.Defs
import proofs.«163968_j9586367004883_2_alg».proof.Proof.Gen.Kernel
import proofs.«163968_j9586367004883_2_alg».proof.Proof.Gen.Kernel.Frame
import proofs.«163968_j9586367004883_2_alg».proof.Proof.Gen.KernelIdeal
import proofs.«163968_j9586367004883_2_alg».proof.Proof.Gen.KernelIdeal.Frame
import proofs.«163968_j9586367004883_2_alg».proof.Proof.Gen.ReferenceIdeal
import proofs.«163968_j9586367004883_2_alg».proof.Proof.Gen.ReferenceIdeal.Run
import proofs.«163968_j9586367004883_2_alg».proof.Proof.Gen.ReferenceIdeal.Read
import proofs.«163968_j9586367004883_2_alg».proof.Proof.Gen.Pre_finite_inputs
import proofs.«163968_j9586367004883_2_alg».proof.Proof.KernelValue
import proofs.«163968_j9586367004883_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the row sums of the one score column. -/
theorem algebraic : Cert.algebraic_KernelIdeal_ReferenceIdeal := by
  intro m ρ m' ρ' _ hagree
  refine ⟨fun c => Cert.PairTanh.rowSums (Cert.KernelIdeal.HostSide.scores m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v30_eq _ _ _ _ _).trans ((Cert.ReferenceIdeal.RefValue.result_eq _ _ _ _ _).trans ?_)
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
